-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x1024 : Shape := ⟨3, ![2048, 1, 1024]⟩
abbrev S12x2048x1024x3 : Shape := ⟨4, ![12, 2048, 1024, 3]⟩
abbrev S1 : Shape := ⟨1, ![1]⟩
abbrev S3072x1024 : Shape := ⟨2, ![3072, 1024]⟩
abbrev S1024x1024 : Shape := ⟨2, ![1024, 1024]⟩
abbrev S1024x1x3 : Shape := ⟨3, ![1024, 1, 3]⟩
abbrev S_ : Shape := ⟨0, ![]⟩

class Facts : Prop where
  bcast_S_S2048x1x1024 : S_.BroadcastsInDim S2048x1x1024 (![] : Fin 0 → Fin S2048x1x1024.rank)
  reducesTo_S2048x1x1024_S_d0_1_2 : S2048x1x1024.ReducesTo [0, 1, 2] S_
  h_S_ : 0 < S_.numel
  bcast_S_S12x2048x1024x3 : S_.BroadcastsInDim S12x2048x1024x3 (![] : Fin 0 → Fin S12x2048x1024x3.rank)
  reducesTo_S12x2048x1024x3_S_d0_1_2_3 : S12x2048x1024x3.ReducesTo [0, 1, 2, 3] S_
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x1x3 : S_.BroadcastsInDim S1024x1x3 (![] : Fin 0 → Fin S1024x1x3.rank)
  reducesTo_S1024x1x3_S_d0_1_2 : S1024x1x3.ReducesTo [0, 1, 2] S_

variable [Facts]

def fn_part1 {F : FTy → Type} [FloatOps F] (main_arg5 : FVec F S1024x1x3 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1x3 .f32 := Host.absf main_arg5
  let main_cst_6 : FVec F S_ .f32 := constant S_ .f32 0x7F800000#32
  let main_v20 : FVec F S1024x1x3 .f32 := broadcastInDim S1024x1x3 ![] bcast_S_S1024x1x3 main_cst_6
  let main_v21 : IVec S1024x1x3 1 := cmpf .olt main_v19 main_v20
  let main_c_7 : IVec S_ 1 := constantI S_ 1 1#1
  let main_v22 : IVec S_ 1 := (fun x v => Host.reduce IntOp.andi x v reducesTo_S1024x1x3_S_d0_1_2 h_S_) main_v21 main_c_7
  let main_v23 : IVec S_ 1 := andi main_v18 main_v22
  main_v23

def fn {F : FTy → Type} [FloatOps F] (main_arg0 : FVec F S2048x1x1024 .f32) (main_arg1 : FVec F S12x2048x1024x3 .f32) (main_arg2 : IVec S1 32) (main_arg3 : FVec F S3072x1024 .f32) (main_arg4 : FVec F S1024x1024 .f32) (main_arg5 : FVec F S1024x1x3 .f32) : IVec S_ 1 :=
  let main_v0 : FVec F S2048x1x1024 .f32 := Host.absf main_arg0
  let main_cst : FVec F S_ .f32 := constant S_ .f32 0x7F800000#32
  let main_v1 : FVec F S2048x1x1024 .f32 := broadcastInDim S2048x1x1024 ![] bcast_S_S2048x1x1024 main_cst
  let main_v2 : IVec S2048x1x1024 1 := cmpf .olt main_v0 main_v1
  let main_c : IVec S_ 1 := constantI S_ 1 1#1
  let main_v3 : IVec S_ 1 := (fun x v => Host.reduce IntOp.andi x v reducesTo_S2048x1x1024_S_d0_1_2 h_S_) main_v2 main_c
  let main_v4 : FVec F S12x2048x1024x3 .f32 := Host.absf main_arg1
  let main_cst_0 : FVec F S_ .f32 := constant S_ .f32 0x7F800000#32
  let main_v5 : FVec F S12x2048x1024x3 .f32 := broadcastInDim S12x2048x1024x3 ![] bcast_S_S12x2048x1024x3 main_cst_0
  let main_v6 : IVec S12x2048x1024x3 1 := cmpf .olt main_v4 main_v5
  let main_c_1 : IVec S_ 1 := constantI S_ 1 1#1
  let main_v7 : IVec S_ 1 := (fun x v => Host.reduce IntOp.andi x v reducesTo_S12x2048x1024x3_S_d0_1_2_3 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S2048x1x1024 : Shape := ⟨3, ![2048, 1, 1024]⟩
abbrev S12x2048x1024x3 : Shape := ⟨4, ![12, 2048, 1024, 3]⟩
abbrev S1 : Shape := ⟨1, ![1]⟩
abbrev S3072x1024 : Shape := ⟨2, ![3072, 1024]⟩
abbrev S1024x1024 : Shape := ⟨2, ![1024, 1024]⟩
abbrev S1024x1x3 : Shape := ⟨3, ![1024, 1, 3]⟩
abbrev S1x2048x1024x3 : Shape := ⟨4, ![1, 2048, 1024, 3]⟩
abbrev S2048x1024x3 : Shape := ⟨3, ![2048, 1024, 3]⟩
abbrev S1024x3 : Shape := ⟨2, ![1024, 3]⟩
abbrev S1x1024x3 : Shape := ⟨3, ![1, 1024, 3]⟩
abbrev S_ : Shape := ⟨0, ![]⟩
abbrev S2048x1024 : Shape := ⟨2, ![2048, 1024]⟩
abbrev S512x1024 : Shape := ⟨2, ![512, 1024]⟩

abbrev nBuf : Space → Nat
  | .hbm => 20
  | .vmem => 8
  | .smem => 0
  | _ => 0

abbrev bufTy : (tb : Table) → Fin (tcTables nBuf tb) → BufTy
  | .hbm, ⟨0, _⟩ => ⟨S2048x1x1024, .f32⟩
  | .hbm, ⟨1, _⟩ => ⟨S12x2048x1024x3, .f32⟩
  | .hbm, ⟨2, _⟩ => ⟨S1, .i32⟩
  | .hbm, ⟨3, _⟩ => ⟨S3072x1024, .f32⟩
  | .hbm, ⟨4, _⟩ => ⟨S1024x1024, .f32⟩
  | .hbm, ⟨5, _⟩ => ⟨S1024x1x3, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1x2048x1024x3, .f32⟩
  | .hbm, ⟨10, _⟩ => ⟨S2048x1024x3, .f32⟩
  | .hbm, ⟨11, _⟩ => ⟨S1024x3, .f32⟩
  | .hbm, ⟨12, _⟩ => ⟨S1x1024x3, .f32⟩
  | .hbm, ⟨13, _⟩ => ⟨S2048x1024x3, .f32⟩
  | .hbm, ⟨14, _⟩ => ⟨S2048x1024x3, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S2048x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S3072x1024_S1024x1024_1024_0 : S3072x1024.Slices ![1024, 0] S1024x1024
  bitsLt_bf16_f32 : FTy.bits .bf16 < FTy.bits .f32
  slices_S12x2048x1024x3_S1x2048x1024x3_0_0_0_0 : S12x2048x1024x3.Slices ![0, 0, 0, 0] S1x2048x1024x3
  shapeCasts_S1x2048x1024x3_S2048x1024x3 : S1x2048x1024x3.ShapeCasts S2048x1024x3
  shapeCasts_S1024x1x3_S1024x3 : S1024x1x3.ShapeCasts S1024x3
  bcast_S1024x3_S1x1024x3_1_2 : S1024x3.BroadcastsInDim S1x1024x3 (![1, 2] : Fin 2 → Fin S1x1024x3.rank)
  bcast_S1x1024x3_S2048x1024x3_0_1_2 : S1x1024x3.BroadcastsInDim S2048x1024x3 (![0, 1, 2] : Fin 3 → Fin S2048x1024x3.rank)
  reducesTo_S2048x1024x3_S2048x1024_d2 : S2048x1024x3.ReducesTo [2] S2048x1024
  h_S_ : 0 < S_.numel
  shapeCasts_S2048x1x1024_S2048x1024 : S2048x1x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S2048x1024_S2048x1x1024_0_2 : S2048x1024.BroadcastsInDim S2048x1x1024 (![0, 2] : Fin 2 → Fin S2048x1x1024.rank)
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S2048x1024.size a
  hwx0_4 : ∀ i : grid0.Coords, EltTy.bits .f32 = 32 ∨ (Rect.block (s := S2048x1024) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v10) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x1x1024 : Shape := ⟨3, ![2048, 1, 1024]⟩
abbrev S12x2048x1024x3 : Shape := ⟨4, ![12, 2048, 1024, 3]⟩
abbrev S1 : Shape := ⟨1, ![1]⟩
abbrev S3072x1024 : Shape := ⟨2, ![3072, 1024]⟩
abbrev S1024x1024 : Shape := ⟨2, ![1024, 1024]⟩
abbrev S1024x1x3 : Shape := ⟨3, ![1024, 1, 3]⟩
abbrev S2048x1x3072 : Shape := ⟨3, ![2048, 1, 3072]⟩
abbrev S2048x3072x1 : Shape := ⟨3, ![2048, 3072, 1]⟩
abbrev S2048x1024x1 : Shape := ⟨3, ![2048, 1024, 1]⟩
abbrev S1x2048x1024x3 : Shape := ⟨4, ![1, 2048, 1024, 3]⟩
abbrev S2048x1024x3 : Shape := ⟨3, ![2048, 1024, 3]⟩
abbrev S1024x3 : Shape := ⟨2, ![1024, 3]⟩
abbrev S1x1024x3 : Shape := ⟨3, ![1, 1024, 3]⟩
abbrev S_ : Shape := ⟨0, ![]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x1x1024, .f32⟩
  | .hbm, ⟨1, _⟩ => ⟨S12x2048x1024x3, .f32⟩
  | .hbm, ⟨2, _⟩ => ⟨S1, .i32⟩
  | .hbm, ⟨3, _⟩ => ⟨S3072x1024, .f32⟩
  | .hbm, ⟨4, _⟩ => ⟨S1024x1024, .f32⟩
  | .hbm, ⟨5, _⟩ => ⟨S1024x1x3, .f32⟩
  | .hbm, ⟨6, _⟩ => ⟨S2048x1x3072, .f32⟩
  | .hbm, ⟨7, _⟩ => ⟨S2048x3072x1, .f32⟩
  | .hbm, ⟨8, _⟩ => ⟨S2048x1024x1, .f32⟩
  | .hbm, ⟨9, _⟩ => ⟨S2048x1024x1, .f32⟩
  | .hbm, ⟨10, _⟩ => ⟨S2048x1024x1, .f32⟩
  | .hbm, ⟨11, _⟩ => ⟨S2048x1024x1, .f32⟩
  | .hbm, ⟨12, _⟩ => ⟨S1x2048x1024x3, .f32⟩
  | .hbm, ⟨13, _⟩ => ⟨S2048x1024x3, .f32⟩
  | .hbm, ⟨14, _⟩ => ⟨S1024x3, .f32⟩
  | .hbm, ⟨15, _⟩ => ⟨S1x1024x3, .f32⟩
  | .hbm, ⟨16, _⟩ => ⟨S2048x1024x3, .f32⟩
  | .hbm, ⟨17, _⟩ => ⟨S2048x1024x3, .f32⟩
  | .hbm, ⟨18, _⟩ => ⟨S_, .f32⟩
  | .hbm, ⟨19, _⟩ => ⟨S2048x1024, .f32⟩
  | .hbm, ⟨20, _⟩ => ⟨S2048x1024x1, .f32⟩
  | .hbm, ⟨21, _⟩ => ⟨S2048x1024x1, .f32⟩
  | .hbm, ⟨22, _⟩ => ⟨S2048x1x1024, .f32⟩
  | .hbm, ⟨23, _⟩ => ⟨S2048x1x1024, .f32⟩
  | _, _ => ⟨S2048x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S2048x1x3072_S2048x3072x1_0_2_1 : S2048x1x3072.Transposes [0, 2, 1] S2048x3072x1
  slices_S2048x3072x1_S2048x1024x1_0_0_0 : S2048x3072x1.Slices ![0, 0, 0] S2048x1024x1
  slices_S2048x3072x1_S2048x1024x1_0_1024_0 : S2048x3072x1.Slices ![0, 1024, 0] S2048x1024x1
  slices_S2048x3072x1_S2048x1024x1_0_2048_0 : S2048x3072x1.Slices ![0, 2048, 0] S2048x1024x1
  slices_S12x2048x1024x3_S1x2048x1024x3_0_0_0_0 : S12x2048x1024x3.Slices ![0, 0, 0, 0] S1x2048x1024x3
  shapeCasts_S1x2048x1024x3_S2048x1024x3 : S1x2048x1024x3.ShapeCasts S2048x1024x3
  shapeCasts_S1024x1x3_S1024x3 : S1024x1x3.ShapeCasts S1024x3
  bcast_S1024x3_S1x1024x3_1_2 : S1024x3.BroadcastsInDim S1x1024x3 (![1, 2] : Fin 2 → Fin S1x1024x3.rank)
  bcast_S1x1024x3_S2048x1024x3_0_1_2 : S1x1024x3.BroadcastsInDim S2048x1024x3 (![0, 1, 2] : Fin 3 → Fin S2048x1024x3.rank)
  reducesTo_S2048x1024x3_S2048x1024_d2 : S2048x1024x3.ReducesTo [2] S2048x1024
  h_S_ : 0 < S_.numel
  bcast_S2048x1024_S2048x1024x1_0_1 : S2048x1024.BroadcastsInDim S2048x1024x1 (![0, 1] : Fin 2 → Fin S2048x1024x1.rank)
  transposes_S2048x1024x1_S2048x1x1024_0_2_1 : S2048x1024x1.Transposes [0, 2, 1] S2048x1x1024
  dot_S2048x1x1024_S3072x1024_S2048x1x3072_2_1_01_0_n_n_wf : DotDims.WF S2048x1x1024 S3072x1024 S2048x1x3072 [2] [1] [0, 1] [0] [] []
  dot_S2048x1x1024_S1024x1024_S2048x1x1024_2_1_01_0_n_n_wf : DotDims.WF S2048x1x1024 S1024x1024 S2048x1x1024 [2] [1] [0, 1] [0] [] []

variable [Facts₀]

def dot_S2048x1x1024_S3072x1024_S2048x1x3072_2_1_01_0_n_n : DotDims S2048x1x1024 S3072x1024 S2048x1x3072 where
  lhsContracting := [2]
  rhsContracting := [1]
  lhsNonContracting := [0, 1]
  rhsNonContracting := [0]
  lhsBatch := []
  rhsBatch := []
  wf := dot_S2048x1x1024_S3072x1024_S2048x1x3072_2_1_01_0_n_n_wf
def dot_S2048x1x1024_S1024x1024_S2048x1x1024_2_1_01_0_n_n : DotDims S2048x1x1024 S1024x1024 S2048x1x1024 where
  lhsContracting := [2]
  rhsContracting := [1]
  lhsNonContracting := [0, 1]
  rhsNonContracting := [0]
  lhsBatch := []
  rhsBatch := []
  wf := dot_S2048x1x1024_S1024x1024_S2048x1x1024_2_1_01_0_n_n_wf

class Facts : Prop extends Facts₀ where

variable [Facts]
-- ==== Proof.Spec.lean ====
/-
  The function both programs compute, stated once over literal shapes.

  With x : [2048, 1, 1024], w : [3072, 1024] (the input projection), co : [2048, 1024] (the short
  convolution's output, whatever it is) and wo : [1024, 1024] (the output projection):

    gate b e = Σ_d x[b, 0, d] · w[1024 + e, d]            (the middle third of the projection's rows)
    proj b f = Σ_e (gate b e · co[b, e]) · wo[f, e]

  The result is `proj`, laid out as [2048, 1024] (`out2`) or, with a unit middle axis, as
  [2048, 1, 1024] (`out3`). Nothing here needs finiteness: both programs form exactly these sums
  of products, in this grouping, over the extended reals.
-/
import Idealize.ShloMosaic.PureOps.Ideal
import Idealize.ShloMosaic.Lib.ValueIdx

noncomputable section

open scoped BigOperators

namespace Cert.ShortConv

open Idealize.ShloMosaic Idealize.ShloMosaic.ValueIdx

/-- Row `e` of the gate's third of the input projection: row `1024 + e` of its 3072 rows. -/
abbrev gateRow (e : Fin 1024) : Fin 3072 := ⟨1024 + e.val, by omega⟩

/-- The gate: row `b` of `x` against row `1024 + e` of the input projection. -/
def gate (x : (⟨3, ![2048, 1, 1024]⟩ : Shape).Idx → EReal) (w : (⟨2, ![3072, 1024]⟩ : Shape).Idx → EReal)
    (b : Fin 2048) (e : Fin 1024) : EReal :=
  ∑ d : Fin 1024, x (ix3 b (0 : Fin 1) d) * w (ix2 (gateRow e) d)

/-- The gated convolution output, projected: entry `(b, f)` of the result. -/
def proj (x : (⟨3, ![2048, 1, 1024]⟩ : Shape).Idx → EReal) (w : (⟨2, ![3072, 1024]⟩ : Shape).Idx → EReal)
    (co : (⟨2, ![2048, 1024]⟩ : Shape).Idx → EReal) (wo : (⟨2, ![1024, 1024]⟩ : Shape).Idx → EReal)
    (b : Fin 2048) (f : Fin 1024) : EReal :=
  ∑ e : Fin 1024, gate x w b e * co (ix2 b e) * wo (ix2 f e)

/-- The result as a [2048, 1024] array. -/
def out2 (x : (⟨3, ![2048, 1, 1024]⟩ : Shape).Idx → EReal) (w : (⟨2, ![3072, 1024]⟩ : Shape).Idx → EReal)
    (co : (⟨2, ![2048, 1024]⟩ : Shape).Idx → EReal) (wo : (⟨2, ![1024, 1024]⟩ : Shape).Idx → EReal) :
    (⟨2, ![2048, 1024]⟩ : Shape).Idx → EReal :=
  fun i => proj x w co wo (i 0) (i 1)

/-- The result as a [2048, 1, 1024] array. -/
def out3 (x : (⟨3, ![2048, 1, 1024]⟩ : Shape).Idx → EReal) (w : (⟨2, ![3072, 1024]⟩ : Shape).Idx → EReal)
    (co : (⟨2, ![2048, 1024]⟩ : Shape).Idx → EReal) (wo : (⟨2, ![1024, 1024]⟩ : Shape).Idx → EReal) :
    (⟨3, ![2048, 1, 1024]⟩ : Shape).Idx → EReal :=
  fun i => proj x w co wo (i 0) (i 2)

end Cert.ShortConv

end
-- ==== Proof.KernelEntry.lean ====
/-
  What the region finds in its four input arrays, as functions of the program's arguments.

  Before the launch the host reshapes x [2048, 1, 1024] to [2048, 1024], takes rows 1024..2047 of
  the input projection and the whole output projection (each through a change of float format,
  the identity over the extended reals), and forms the short convolution's output: the first
  layer of the cache times the taps, summed over the three taps. The first three are read here
  entry by entry; the convolution output is kept as the host's own term (`convOut`), since the
  reference forms it by the same operations.
-/
import proofs.«164087_j68470368633593_2_alg».proof.Proof.Gen.KernelIdeal.Frame
import proofs.«164087_j68470368633593_2_alg».proof.Proof.Spec
import Idealize.ShloMosaic.Lib.Pipeline.Value
import Idealize.ShloMosaic.Lib.ValueIdx
import Idealize.ShloMosaic.Lib.StableHlo.Run

noncomputable section

open scoped BigOperators

namespace Cert.ShortConv

open Idealize.ShloMosaic Idealize.ShloMosaic.TcCoe Idealize.SL.Sem Idealize.ShloMosaic.ValueIdx
open Idealize.ShloMosaic.StableHlo
open Cert.KernelIdeal Cert.KernelIdeal.Gen

/-- The short convolution's output as the host forms it: layer 0 of the cache, times the taps
    broadcast over the batch, summed over the three taps from zero. -/
def convOut (x1 : Vec Ideal S12x2048x1024x3 .f32) (x5 : Vec Ideal S1024x1x3 .f32) : Vec Ideal S2048x1024 .f32 :=
  Host.reduceAdd (F := Ideal)
    (mulf (shapeCast _ (extractStridedSlice S1x2048x1024x3 ![0, 0, 0, 0] x1 slices_S12x2048x1024x3_S1x2048x1024x3_0_0_0_0) shapeCasts_S1x2048x1024x3_S2048x1024x3)
      (broadcastInDim S2048x1024x3 ![0, 1, 2] bcast_S1x1024x3_S2048x1024x3_0_1_2
        (broadcastInDim S1x1024x3 ![1, 2] bcast_S1024x3_S1x1024x3_1_2 (shapeCast _ x5 shapeCasts_S1024x1x3_S1024x3))))
    (constant (F := Ideal) S_ .f32 0x00000000#32) reducesTo_S2048x1024x3_S2048x1024_d2 h_S_

variable (m : (ℓ : Loc nD τ sig) → Buf (Elt Ideal) ℓ)

/-- The region's first operand is x with its unit axis dropped. -/
theorem entry_x (c : Dev nD) :
    (V m c main_v10 : S2048x1024.Idx → EReal)
      = shapeCast _ (m ((c : Thread nD τ).loc main_arg0)) shapeCasts_S2048x1x1024_S2048x1024 := by
  show StableHlo.after hostOps0 (fun b => m (c, b)) (Proc.devRef .tc main_v10) = _
  after_results <;> rfl

/-- Its second operand is rows 1024..2047 of the input projection. -/
theorem entry_wc (c : Dev nD) :
    (V m c main_v1 : S1024x1024.Idx → EReal)
      = truncf (F := Ideal) .bf16 (extractStridedSlice S1024x1024 ![1024, 0] (m ((c : Thread nD τ).loc main_arg3)) slices_S3072x1024_S1024x1024_1024_0) bitsLt_bf16_f32 := by
  show StableHlo.after hostOps0 (fun b => m (c, b)) (Proc.devRef .tc main_v1) = _
  after_results <;> rfl

/-- Its third operand is the convolution output. -/
theorem entry_co (c : Dev nD) :
    (V m c main_v9 : S2048x1024.Idx → EReal)
      = convOut (m ((c : Thread nD τ).loc main_arg1)) (m ((c : Thread nD τ).loc main_arg5)) := by
  show StableHlo.after hostOps0 (fun b => m (c, b)) (Proc.devRef .tc main_v9) = _
  after_results <;> rfl

/-- Its fourth operand is the output projection. -/
theorem entry_wo (c : Dev nD) :
    (V m c main_v2 : S1024x1024.Idx → EReal)
      = truncf (F := Ideal) (s := S1024x1024) .bf16 (m ((c : Thread nD τ).loc main_arg4)) bitsLt_bf16_f32 := by
  show StableHlo.after hostOps0 (fun b => m (c, b)) (Proc.devRef .tc main_v2) = _
  after_results <;> rfl

/-- Row `b`, column `d` of the reshaped x is `x[b, 0, d]`. -/
theorem reshape_x_apply (X : Vec Ideal S2048x1x1024 .f32) (i : S2048x1024.Idx) (b : Fin 2048) (d : Fin 1024)
    (h0 : (i 0).val = b.val) (h1 : (i 1).val = d.val) :
    shapeCast S2048x1024 X shapeCasts_S2048x1x1024_S2048x1024 i = X (ix3 b (0 : Fin 1) d) := by
  refine shapeCast_apply X shapeCasts_S2048x1x1024_S2048x1024 i (ix3 b (0 : Fin 1) d) ?_
  rewrite [Shape.rowMajor_val_three, Shape.rowMajor_val_two]
  show (b.val * 1 + 0) * 1024 + d.val = (i 0).val * 1024 + (i 1).val
  rw [h0, h1]; omega

/-- Row `e`, column `d` of the gate's weight block is row `1024 + e` of the input projection. -/
theorem slice_w_apply (W : Vec Ideal S3072x1024 .f32) (j : S1024x1024.Idx) (e d : Fin 1024)
    (h0 : (j 0).val = e.val) (h1 : (j 1).val = d.val) :
    (truncf (F := Ideal) .bf16 (extractStridedSlice S1024x1024 ![1024, 0] W slices_S3072x1024_S1024x1024_1024_0) bitsLt_bf16_f32) j
      = W (ix2 (gateRow e) d) := by
  show extractStridedSlice S1024x1024 ![1024, 0] W slices_S3072x1024_S1024x1024_1024_0 j = _
  exact extractStridedSlice_apply ![1024, 0] W slices_S3072x1024_S1024x1024_1024_0 j (ix2 (gateRow e) d) (fun a => match a with
    | ⟨0, _⟩ => by show 1024 + e.val = 1024 + (j 0).val; omega
    | ⟨1, _⟩ => by show d.val = 0 + (j 1).val; omega)

end Cert.ShortConv

end
-- ==== Proof.Payload.lean ====
/-
  The kernel body's stored value, read at one entry.

  The body loads a 512-row block of x, the gate's weight block wc [1024, 1024], the matching block
  of the convolution output co, and the output projection wo [1024, 1024], and stores
  (x · wcᵀ ∘ co) · woᵀ. Over the extended reals the two changes of float format are the identity
  and each matrix product into a zero accumulator is the plain sum of products over the contracted
  axis, so entry (p, q) of the stored block is
      Σ_e (Σ_d x[p, d] · wc[e, d]) · co[p, e] · wo[q, e].
-/
import proofs.«164087_j68470368633593_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.ShortConv

open Idealize.ShloMosaic Idealize.ShloMosaic.ValueIdx Cert.KernelIdeal Cert.KernelIdeal.Gen

/-- The dimension numbers both matrix products carry: axis 1 of each operand is contracted, axis 0 of
    each is kept, and there is no batch axis. Entry (p, q) of the product therefore pairs row p of
    the left operand with row q of the right one. -/
abbrev payDot : DotDims S512x1024 S1024x1024 S512x1024 := dot_S512x1024_S1024x1024_S512x1024_1_1_0_0_n_n

/-- The left operand's kept axis reads the output's first coordinate. -/
theorem payDot_lhs_0 (i : S512x1024.Idx) (k : payDot.contr.Idx) : (payDot.lhsIdx i k 0).val = (i 0).val := by
  unfold DotDims.lhsIdx
  rw [dif_neg (show ¬(0 : Fin S512x1024.rank) ∈ payDot.lhsBatch by decide),
    dif_pos (show (0 : Fin S512x1024.rank) ∈ payDot.lhsNonContracting by decide)]
  rfl

/-- The left operand's contracted axis reads the contraction index. -/
theorem payDot_lhs_1 (i : S512x1024.Idx) (k : payDot.contr.Idx) : (payDot.lhsIdx i k 1).val = (k ⟨0, by decide⟩).val :=
  payDot.lhsIdx_val_of_single rfl i k

/-- The right operand's kept axis reads the output's second coordinate. -/
theorem payDot_rhs_0 (i : S512x1024.Idx) (k : payDot.contr.Idx) : (payDot.rhsIdx i k 0).val = (i 1).val := by
  unfold DotDims.rhsIdx
  rw [dif_neg (show ¬(0 : Fin S1024x1024.rank) ∈ payDot.rhsBatch by decide),
    dif_pos (show (0 : Fin S1024x1024.rank) ∈ payDot.rhsNonContracting by decide)]
  rfl

/-- The right operand's contracted axis reads the contraction index. -/
theorem payDot_rhs_1 (i : S512x1024.Idx) (k : payDot.contr.Idx) : (payDot.rhsIdx i k 1).val = (k ⟨0, by decide⟩).val :=
  payDot.rhsIdx_val_of_single rfl i k

/-- A matrix product with these dimension numbers into the zero accumulator, read at entry (p, q):
    the sum over the shared axis of row p of the left operand times row q of the right one. -/
theorem payDot_zero_apply (l : FVec Ideal S512x1024 .bf16) (r : FVec Ideal S1024x1024 .bf16)
    (p : Fin 512) (q : Fin 1024) :
    matmul (F := Ideal) payDot none l r (constant (F := Ideal) S512x1024 .f32 0x00000000#32) (ix2 p q)
      = ∑ k : Fin 1024, l (ix2 p k) * r (ix2 q k) := by
  show FloatOps.matmul _ _ _ _ _ _ = _
  rw [Ideal.matmul_constant_zero_apply, ← Equiv.sum_comp (ValueIdx.contrEquiv1 payDot 1024 rfl rfl).symm]
  refine Finset.sum_congr rfl fun k _ => ?_
  have hk := ValueIdx.contrEquiv1_symm_val payDot 1024 rfl rfl k
  have el : payDot.lhsIdx (ix2 p q) ((ValueIdx.contrEquiv1 payDot 1024 rfl rfl).symm k) = ix2 p k :=
    funext fun a => Fin.ext (by
      match a with
      | ⟨0, _⟩ => exact payDot_lhs_0 _ _
      | ⟨1, _⟩ => exact (payDot_lhs_1 _ _).trans hk)
  have er : payDot.rhsIdx (ix2 p q) ((ValueIdx.contrEquiv1 payDot 1024 rfl rfl).symm k) = ix2 q k :=
    funext fun a => Fin.ext (by
      match a with
      | ⟨0, _⟩ => exact payDot_rhs_0 _ _
      | ⟨1, _⟩ => exact (payDot_rhs_1 _ _).trans hk)
  rw [el, er]

/-- Entry `(p, q)` of the block the body stores, as a double sum over the loaded blocks. -/
theorem body_apply (x0 : Vec Ideal S512x1024 .f32) (x1 : Vec Ideal S1024x1024 .bf16)
    (x2 : Vec Ideal S512x1024 .f32) (x3 : Vec Ideal S1024x1024 .bf16) (p : Fin 512) (q : Fin 1024) :
    k0_pay1 (F := Ideal) x0 x1 x2 x3 (ix2 p q)
      = ∑ e : Fin 1024, (∑ d : Fin 1024, x0 (ix2 p d) * x1 (ix2 e d)) * x2 (ix2 p e) * x3 (ix2 q e) := by
  unfold k0_pay1
  rw [shapeCast_self, shapeCast_self, shapeCast_self, shapeCast_self]
  refine (payDot_zero_apply _ _ p q).trans ?_
  refine Finset.sum_congr rfl fun e _ => ?_
  exact congrArg (fun t => t * x2 (ix2 p e) * x3 (ix2 q e)) (payDot_zero_apply _ x1 p e)

end Cert.ShortConv

end
-- ==== Proof.KernelBlocks.lean ====
/-
  The region's output array after the run is the specification's `out2`.

  Grid point t loads rows 512t .. 512t + 511 of the reshaped x and of the convolution output,
  the two whole weight blocks, and writes rows 512t .. 512t + 511 of the output. Each stored
  entry is the specification's entry at that row and column (`block_entry`), so every point
  writes back its block of the one function `out2`; the four blocks tile the [2048, 1024] array,
  so the array ends holding `out2`.
-/
import proofs.«164087_j68470368633593_2_alg».proof.Proof.KernelEntry
import proofs.«164087_j68470368633593_2_alg».proof.Proof.Payload
import Idealize.ShloMosaic.Lib.Tactic

noncomputable section

open scoped BigOperators

namespace Cert.ShortConv

open Idealize.ShloMosaic Idealize.ShloMosaic.TcCoe Idealize.SL.Sem Idealize.ShloMosaic.ValueIdx
open Idealize.ShloMosaic.Pipeline (Dat)
open Cert.KernelIdeal Cert.KernelIdeal.Gen

/-- One stored entry is the specification's entry, once each loaded block is known to be the
    right rows of its array: row `p` of the x and convolution blocks is row `b` of the arrays,
    the weight blocks are the gate's rows of the input projection and the whole output projection. -/
theorem block_entry (x0 : Vec Ideal S512x1024 .f32) (x1 : Vec Ideal S1024x1024 .bf16)
    (x2 : Vec Ideal S512x1024 .f32) (x3 : Vec Ideal S1024x1024 .bf16)
    (X : (⟨3, ![2048, 1, 1024]⟩ : Shape).Idx → EReal) (W : (⟨2, ![3072, 1024]⟩ : Shape).Idx → EReal)
    (CO : (⟨2, ![2048, 1024]⟩ : Shape).Idx → EReal) (WO : (⟨2, ![1024, 1024]⟩ : Shape).Idx → EReal)
    (p : Fin 512) (q : Fin 1024) (b : Fin 2048) (f : Fin 1024)
    (h0 : ∀ d : Fin 1024, x0 (ix2 p d) = X (ix3 b (0 : Fin 1) d))
    (h1 : ∀ e d : Fin 1024, x1 (ix2 e d) = W (ix2 (gateRow e) d))
    (h2 : ∀ e : Fin 1024, x2 (ix2 p e) = CO (ix2 b e))
    (h3 : ∀ e : Fin 1024, x3 (ix2 q e) = WO (ix2 f e)) :
    k0_pay1 (F := Ideal) x0 x1 x2 x3 (ix2 p q) = proj X W CO WO b f := by
  rw [body_apply]
  unfold proj gate
  refine Finset.sum_congr rfl fun e _ => ?_
  rw [h2 e, h3 e]
  refine congrArg (· * CO (ix2 b e) * WO (ix2 f e)) ?_
  exact Finset.sum_congr rfl fun d _ => by rw [h0 d, h1 e d]

theorem offsets_zero : (![0, 0] : Fin 2 → Nat) = fun _ => 0 := funext fun a => by fin_cases a <;> rfl

/-- The block index maps over the four grid points: x, the convolution output and the result move
    together along the rows; the weights stay put. -/
theorem index_maps : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 3 :=
  (by decide +kernel : ∀ t : Fin grid0.N, _)

/-- Every row block of the result is some point's. -/
theorem index_onto : ∀ q0 : Fin 4, ∃ t : Fin cfg0.N, win0_4.index t = ![q0.val, 0] :=
  (by decide +kernel : ∀ q0 : Fin 4, ∃ t : Fin grid0.N, win0_4.index t = ![q0.val, 0])

variable (m : (ℓ : Loc nD τ sig) → Buf (Elt Ideal) ℓ)

/-- The result array as a function of the program's arguments. -/
abbrev result2 (c : Dev nD) : (⟨2, ![2048, 1024]⟩ : Shape).Idx → EReal :=
  out2 (m ((c : Thread nD τ).loc main_arg0)) (m ((c : Thread nD τ).loc main_arg3))
    (convOut (m ((c : Thread nD τ).loc main_arg1)) (m ((c : Thread nD τ).loc main_arg5)))
    (m ((c : Thread nD τ).loc main_arg4))

/-- What point `t` writes back is block `t` of `result2`. -/
theorem flushed_eq (c : Dev nD) (t : Fin cfg0.N) :
    (dats m 0 c).flushed 4 t = ((cfg0.win 4).blk t).view.read (Elt Ideal) (result2 m c) := by
  show (cfg0.win 4).cut (grid0.coords t) ((dats m 0 c).after 4 t) = _
  rw [after0_4]
  unfold out0_4
  rw [View.canon_unit_zero offsets_zero]
  simp only [View.ld_unit_zero (S := S512x1024) offsets_zero, View.ld_unit_zero (S := S1024x1024) offsets_zero]
  obtain ⟨e0, e1, e2, e3, e4, e5, e6, e7, e8, e9⟩ := index_maps t
  funext j
  show k0_pay1 (F := Ideal) (iblk m c 0 t) (iblk m c 1 t) (iblk m c 2 t) (iblk m c 3 t) j
    = result2 m c (((cfg0.win 4).blk t).view.emb j)
  have hj : j = ix2 (n0 := 512) (n1 := 1024) (j 0) (j 1) := eq_ix2 (n0 := 512) (n1 := 1024) j
  refine (congrArg (k0_pay1 (F := Ideal) (iblk m c 0 t) (iblk m c 1 t) (iblk m c 2 t) (iblk m c 3 t)) hj).trans ?_
  show _ = proj (m ((c : Thread nD τ).loc main_arg0)) (m ((c : Thread nD τ).loc main_arg3))
    (convOut (m ((c : Thread nD τ).loc main_arg1)) (m ((c : Thread nD τ).loc main_arg5)))
    (m ((c : Thread nD τ).loc main_arg4))
    ((((cfg0.win 4).blk t).view.emb j) 0) ((((cfg0.win 4).blk t).view.emb j) 1)
  have hj0 : (j 0).val < 512 := (j 0).isLt
  have hj1 : (j 1).val < 1024 := (j 1).isLt
  refine block_entry (iblk m c 0 t) (iblk m c 1 t) (iblk m c 2 t) (iblk m c 3 t)
    (m ((c : Thread nD τ).loc main_arg0)) (m ((c : Thread nD τ).loc main_arg3))
    (convOut (m ((c : Thread nD τ).loc main_arg1)) (m ((c : Thread nD τ).loc main_arg5)))
    (m ((c : Thread nD τ).loc main_arg4))
    (j 0) (j 1) ((((cfg0.win 4).blk t).view.emb j) 0) ((((cfg0.win 4).blk t).view.emb j) 1) ?_ ?_ ?_ ?_
  · -- the x block: row `j 0` of the block is row `512 t + j 0` of the reshaped x
    intro d
    show V m c main_v10 (((cfg0.win 0).blk t).view.emb (ix2 (n0 := 512) (n1 := 1024) (j 0) d)) = _
    refine (congrFun (entry_x m c) _).trans ?_
    refine reshape_x_apply _ _ _ d ?_ ?_
    · show win0_0.index t (0 : Fin 2) * 512 + 1 * (j 0).val = win0_4.index t (0 : Fin 2) * 512 + 1 * (j 0).val
      rw [e0]
    · show win0_0.index t (1 : Fin 2) * 1024 + 1 * d.val = d.val
      rw [e1]; omega
  · -- the gate's weight block is the whole sliced array
    intro e d
    show V m c main_v1 (((cfg0.win 1).blk t).view.emb (ix2 (n0 := 1024) (n1 := 1024) e d)) = _
    refine (congrFun (entry_wc m c) _).trans ?_
    refine slice_w_apply _ _ e d ?_ ?_
    · show win0_1.index t (0 : Fin 2) * 1024 + 1 * e.val = e.val
      rw [e2]; omega
    · show win0_1.index t (1 : Fin 2) * 1024 + 1 * d.val = d.val
      rw [e3]; omega
  · -- the convolution block: row `j 0` of the block is row `512 t + j 0` of the array
    intro e
    show V m c main_v9 (((cfg0.win 2).blk t).view.emb (ix2 (n0 := 512) (n1 := 1024) (j 0) e)) = _
    refine (congrFun (entry_co m c) _).trans ?_
    refine congrArg (convOut (m ((c : Thread nD τ).loc main_arg1)) (m ((c : Thread nD τ).loc main_arg5))) ?_
    funext a
    apply Fin.ext
    match a with
    | ⟨0, _⟩ =>
      show win0_2.index t (0 : Fin 2) * 512 + 1 * (j 0).val = win0_4.index t (0 : Fin 2) * 512 + 1 * (j 0).val
      rw [e4]
    | ⟨1, _⟩ =>
      show win0_2.index t (1 : Fin 2) * 1024 + 1 * e.val = e.val
      rw [e5]; omega
  · -- the output projection's block is the whole array
    intro e
    show V m c main_v2 (((cfg0.win 3).blk t).view.emb (ix2 (n0 := 1024) (n1 := 1024) (j 1) e)) = _
    refine (congrFun (entry_wo m c) _).trans ?_
    show m ((c : Thread nD τ).loc main_arg4) (((cfg0.win 3).blk t).view.emb (ix2 (n0 := 1024) (n1 := 1024) (j 1) e)) = _
    refine congrArg (m ((c : Thread nD τ).loc main_arg4)) ?_
    funext a
    apply Fin.ext
    match a with
    | ⟨0, _⟩ =>
      show win0_3.index t (0 : Fin 2) * 1024 + 1 * (j 1).val = win0_4.index t (1 : Fin 2) * 1024 + 1 * (j 1).val
      rw [e6, e8]
    | ⟨1, _⟩ =>
      show win0_3.index t (1 : Fin 2) * 1024 + 1 * e.val = e.val
      rw [e7]; omega

/-- An index of the result array is in point `t`'s block iff each coordinate is in the block's range. -/
theorem mem_block (t : Fin cfg0.N) (i : S2048x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v11).slice (win0_4.rect t)).set ↔ _
  rw [View.set_slice_whole, Rect.mem_set_unit]
  exact Iff.rfl

/-- The four row blocks tile the array: row `r` is in the block of point `r / 512`. -/
theorem covered (i : S2048x1024.Idx) :
    ∃ t : Fin cfg0.N, (cfg0.win 4).flush t = true ∧ i ∈ ((cfg0.win 4).blk t).view.set := by
  have hi0 : (i 0).val < 2048 := (i 0).isLt
  have hi1 : (i 1).val < 1024 := (i 1).isLt
  obtain ⟨t, ht⟩ := index_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_block]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-- The result array after the run is `result2`. -/
theorem final (c : Dev nD) : (dats m 0 c).arrAt 4 cfg0.N = result2 m c :=
  (dats m 0 c).arrAt_eq_of_cover 4 (result2 m c) (fun t _ => flushed_eq m c t) covered

end Cert.ShortConv

end
-- ==== Proof.KernelRun.lean ====
/-
  The idealized kernel's run, read: its result [2048, 1, 1024] is the specification's `out3`.

  After the region the host re-inserts the unit middle axis into the [2048, 1024] array the
  region wrote. Entry (b, 0, f) of the result is entry (b, f) of that array, and `out2` and `out3`
  are the same `proj` read through the two layouts.
-/
import proofs.«164087_j68470368633593_2_alg».proof.Proof.KernelBlocks

noncomputable section

open scoped BigOperators

namespace Cert.ShortConv

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen

/-- Re-inserting the unit middle axis turns `out2` into `out3`. -/
theorem unit_axis (X : (⟨3, ![2048, 1, 1024]⟩ : Shape).Idx → EReal) (W : (⟨2, ![3072, 1024]⟩ : Shape).Idx → EReal)
    (CO : (⟨2, ![2048, 1024]⟩ : Shape).Idx → EReal) (WO : (⟨2, ![1024, 1024]⟩ : Shape).Idx → EReal) :
    broadcastInDim S2048x1x1024 ![0, 2] bcast_S2048x1024_S2048x1x1024_0_2 (out2 X W CO WO) = out3 X W CO WO := by
  funext i
  refine (broadcastInDim_apply _ bcast_S2048x1024_S2048x1x1024_0_2 (out2 X W CO WO) i
    (ix2 (n0 := 2048) (n1 := 1024) (i 0) (i 2)) (fun a => match a with
    | ⟨0, _⟩ => by show (i 0).val = if (2048 : Nat) = 1 then 0 else (i 0).val; rw [if_neg (by decide)]
    | ⟨1, _⟩ => by show (i 2).val = if (1024 : Nat) = 1 then 0 else (i 2).val; rw [if_neg (by decide)])).trans ?_
  rfl

variable (m : (ℓ : Loc nD τ sig) → Buf (Elt Ideal) ℓ) (ρ : Dev nD → PrngReg)

/-- The program's result as a function of its arguments. -/
abbrev result3 (c : Dev nD) : (⟨3, ![2048, 1, 1024]⟩ : Shape).Idx → EReal :=
  out3 (m ((c : Thread nD τ).loc main_arg0)) (m ((c : Thread nD τ).loc main_arg3))
    (convOut (m ((c : Thread nD τ).loc main_arg1)) (m ((c : Thread nD τ).loc main_arg5)))
    (m ((c : Thread nD τ).loc main_arg4))

/-- What the host line after the region leaves in the result buffer. -/
theorem tail_result (c : Dev nD) :
    Pipeline.afterTail₀ cfgs (dats m) 0 (V0 m) [hostOps1] c main_v12 = result3 m c := by
  unfold Pipeline.afterTail₀
  show StableHlo.after hostOps1 _ (Proc.devRef .tc main_v12) = _
  after_results
  have hw : Pipeline.withArrays (cfgs 0).spec c (V0 m c) (fun w => (dats m 0 c).arrAt w (cfgs 0).N)
      (Proc.devRef .tc main_v11) = result2 m c :=
    (Pipeline.withArrays_arr spec0 launch0.win.arr_inj c _ _ 4).trans (final m c)
  rw [hw]
  exact unit_axis _ _ _ _

/-- The idealized kernel's run: every weakly fair execution terminates with the result buffer at
    `result3` of the arguments and the arguments unchanged. -/
theorem run : θ_run defs (onTc (τ := τ) (main (F := Ideal))) ⟨m, fun _ => 0, ρ⟩ fun r => ∀ c : Dev nD,
      r.2.mem ((c.tc : Thread nD τ).loc main_v12) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v12 (Pipeline.mem_restRefs_of main_v12 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.ShortConv

end
-- ==== Proof.RefValue.lean ====
/-
  The reference's result, read at one entry, is the specification's `out3`.

  The reference multiplies x by the whole input projection, keeps rows 1024..2047 of the product
  (the gate), multiplies by the convolution output, and applies the output projection; the
  transposes and the slice only move indices. Entry (b, 0, f) is therefore
      Σ_e (Σ_d x[b, 0, d] · w[1024 + e, d]) · co[b, e] · wo[f, e],
  with co the reference's own convolution-output stage, kept as it stands.
-/
import proofs.«164087_j68470368633593_2_alg».proof.Proof.Gen.ReferenceIdeal.Read
import proofs.«164087_j68470368633593_2_alg».proof.Proof.Spec

noncomputable section

open scoped BigOperators

namespace Cert.ShortConv

open Idealize.ShloMosaic Idealize.ShloMosaic.ValueIdx Cert.ReferenceIdeal Cert.ReferenceIdeal.Read

/-- The reference's last stage is `out3` of the arguments, over its own convolution-output stage. -/
theorem reference_eq (x0 : (⟨S2048x1x1024, .f32⟩ : BufTy).Contents (Elt Ideal))
    (x1 : (⟨S12x2048x1024x3, .f32⟩ : BufTy).Contents (Elt Ideal))
    (x3 : (⟨S3072x1024, .f32⟩ : BufTy).Contents (Elt Ideal))
    (x4 : (⟨S1024x1024, .f32⟩ : BufTy).Contents (Elt Ideal))
    (x5 : (⟨S1024x1x3, .f32⟩ : BufTy).Contents (Elt Ideal)) :
    val_main_v16 (F := Ideal) x0 x1 x3 x4 x5 = out3 x0 x3 (val_main_v12 (F := Ideal) x1 x5) x4 := by
  funext i
  -- Split the index into its coordinates (b, z, f); the middle axis has one element, so z = 0.
  obtain ⟨b, z, f, rfl⟩ : ∃ (b : Fin 2048) (z : Fin 1) (f : Fin 1024), i = ix3 b z f :=
    ⟨i 0, i 1, i 2, eq_ix3 i⟩
  have hz : z = 0 := Subsingleton.elim _ _
  subst hz
  -- The last stage is the sum over e of the gated stage at (b, 0, e) times wo[f, e];
  -- compare the two sums term by term.
  rw [val_main_v16_apply]
  unfold out3 proj
  refine Finset.sum_congr rfl fun e _ => ?_
  -- Read the gated stage back through the transpose, the product, the slice at rows 1024..,
  -- the transpose of the input projection, the projection's own sum over d, and the broadcast
  -- of the convolution output.
  rw [val_main_v15_apply, val_main_v14_apply, val_main_v3_apply, val_main_v1_apply,
    val_main_v0_apply, val_main_v13_apply]
  unfold gate
  -- The composed index maps, coordinate by coordinate.
  -- x is read at (b, 0, d).
  have hl : ∀ d : Fin 1024,
      lidx_main_v0 (idx_main_v1 (idx_main_v3 (idx_main_v15
        (lidx_main_v16 (ix3 b (0 : Fin 1) f) e)))) d = (ix3 b (0 : Fin 1) d : S2048x1x1024.Idx) :=
    fun d => funext fun a => Fin.ext (by
      match a with | ⟨0, _⟩ => rfl | ⟨1, _⟩ => rfl | ⟨2, _⟩ => rfl)
  -- w is read at (1024 + e, d).
  have hr : ∀ d : Fin 1024,
      ridx_main_v0 (idx_main_v1 (idx_main_v3 (idx_main_v15
        (lidx_main_v16 (ix3 b (0 : Fin 1) f) e)))) d = (ix2 (gateRow e) d : S3072x1024.Idx) :=
    fun d => funext fun a => Fin.ext (by
      match a with | ⟨0, _⟩ => rfl | ⟨1, _⟩ => rfl)
  -- The convolution output is read at (b, e).
  have hc : idx_main_v13 (idx_main_v15 (lidx_main_v16 (ix3 b (0 : Fin 1) f) e))
      = (ix2 b e : S2048x1024.Idx) :=
    funext fun a => Fin.ext (by
      match a with | ⟨0, _⟩ => rfl | ⟨1, _⟩ => rfl)
  -- wo is read at (f, e).
  have ho : ridx_main_v16 (ix3 b (0 : Fin 1) f) e = (ix2 f e : S1024x1024.Idx) :=
    funext fun a => Fin.ext (by
      match a with | ⟨0, _⟩ => rfl | ⟨1, _⟩ => rfl)
  rw [hc, ho]
  simp only [hl, hr]
  -- Over the extended reals the stage's product is multiplication itself.
  rfl

end Cert.ShortConv

end
-- ==== Proof.lean ====
/-
  The certificate's five claims.

  Both idealized programs compute, over the extended reals,
      out[b, 0, f] = Σ_e (Σ_d x[b, 0, d] · w_in[1024 + e, d]) · conv[b, e] · w_out[f, e],
  where conv[b, e] = 0 + Σ_l cache[0, b, e, l] · taps[e, 0, l] is formed by the same host
  operations in both. The kernel does it in four row blocks of 512 (two matrix products into zero
  accumulators around a pointwise product; its changes of float format are the identity here),
  the reference by two whole contractions around transposes and a slice. No law beyond the
  equality of these sums term by term is used, so the finiteness precondition is never opened.
  The three frames are the generated frame runs (the reference's is its generated run with the
  result dropped); the idealization rewrote nothing, so `preserves` is trivial.
-/
import proofs.«164087_j68470368633593_2_alg».proof.Defs
import proofs.«164087_j68470368633593_2_alg».proof.Proof.Gen.Kernel
import proofs.«164087_j68470368633593_2_alg».proof.Proof.Gen.Kernel.Skeleton
import proofs.«164087_j68470368633593_2_alg».proof.Proof.Gen.Kernel.Launch
import proofs.«164087_j68470368633593_2_alg».proof.Proof.Gen.Kernel.Points
import proofs.«164087_j68470368633593_2_alg».proof.Proof.Gen.Kernel.Frame
import proofs.«164087_j68470368633593_2_alg».proof.Proof.Gen.KernelIdeal
import proofs.«164087_j68470368633593_2_alg».proof.Proof.Gen.KernelIdeal.Skeleton
import proofs.«164087_j68470368633593_2_alg».proof.Proof.Gen.KernelIdeal.Launch
import proofs.«164087_j68470368633593_2_alg».proof.Proof.Gen.KernelIdeal.Points
import proofs.«164087_j68470368633593_2_alg».proof.Proof.Gen.KernelIdeal.Frame
import proofs.«164087_j68470368633593_2_alg».proof.Proof.Gen.ReferenceIdeal
import proofs.«164087_j68470368633593_2_alg».proof.Proof.Gen.ReferenceIdeal.Run
import proofs.«164087_j68470368633593_2_alg».proof.Proof.Gen.ReferenceIdeal.Read
import proofs.«164087_j68470368633593_2_alg».proof.Proof.Gen.Pre_finite_inputs
import proofs.«164087_j68470368633593_2_alg».proof.Proof.KernelRun
import proofs.«164087_j68470368633593_2_alg».proof.Proof.RefValue
import Idealize.ShloMosaic.Adequacy
import Idealize.ShloMosaic.Init

noncomputable section

namespace Cert.Proof

open Idealize.ShloMosaic Idealize.SL.Sem Cert.Kernel

/-- The reference forms the convolution output by the very operations the kernel's host code uses. -/
theorem convOut_eq (x1 : Vec Ideal Cert.KernelIdeal.S12x2048x1024x3 .f32) (x5 : Vec Ideal Cert.KernelIdeal.S1024x1x3 .f32) :
    Cert.ReferenceIdeal.Read.val_main_v12 (F := Ideal) x1 x5 = Cert.ShortConv.convOut x1 x5 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at `out3` of arguments that agree. -/
theorem algebraic : Cert.algebraic_KernelIdeal_ReferenceIdeal := by
  intro m ρ m' ρ' _ hagree
  refine ⟨fun c => Cert.ShortConv.result3 m c, Cert.ShortConv.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq (F := Ideal) _ _ _ _ _).trans ?_
  refine (Cert.ShortConv.reference_eq _ _ _ _ _).trans ?_
  rw [convOut_eq]
  obtain ⟨a0, a1, a2, a3, a4, a5⟩ := hagree c
  rw [a0, a1, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
